-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S4096x1, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x4096.size a
  hwx1_4 : ∀ i : grid1.Coords, EltTy.bits .f32 = 32 ∨ (Rect.block (s := S8192x4096) S512x512.size (cc1_transform_4 i) (hinb1_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibReal.lean ====
/-
  Extended reals that are real numbers.

  An exact reading of a float program computes in the extended reals; most algebra (distributivity, cancelling,
  moving a factor across a sum) holds only away from the infinities. `IsReal x` says `x` is the reading of a real
  number, and the lemmas below say which operations keep values real: sums, differences, products, maxima, finite
  sums, the exact quotient by a nonzero real, and the exact reciprocal square root of a positive real. With them a
  value built from finite inputs by such operations is known to be real without computing it.
-/
import Idealize.ShloMosaic.PureOps.Ideal

noncomputable section

namespace Cert.Lib.Real

open Idealize.ShloMosaic

/-- `x` is (the reading of) a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real values is real. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exact quotient of a real value by a nonzero real is real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The exact reciprocal square root of a positive real is real. -/
theorem isReal_rsqrt_coe {r : ℝ} (hr : 0 < r) : IsReal (Ideal.rsqrt (r : EReal)) := by
  rw [Ideal.rsqrt_coe, if_neg (not_lt.mpr hr.le), if_neg hr.ne']; exact ⟨_, rfl⟩

/-- A family of real values is the reading of a real-valued family. -/
theorem exists_real {ι : Type*} {f : ι → EReal} (hf : ∀ i, IsReal (f i)) : ∃ g : ι → ℝ, f = fun i => (g i : EReal) := by
  choose g hg using hf; exact ⟨g, funext hg⟩

end Cert.Lib.Real

end
-- ==== Proof.Spec.lean ====
/-
  A linear layer with sign-binarized weights: the specification and the one algebraic law.

  For a weight matrix W[4096, 4096], row o is replaced by its mean absolute value a(o) = (sum_k |W[o,k]|) / 4096
  times the signs of its entries, and the layer is out[p,q,o] = sum_k x[p,q,k] * (a(o) * sign W[o,k]) + b[o].
  One program applies the scale to the weights before the product (the form just written); the other takes the
  product with the bare signs and scales the sum afterwards, (sum_k x[p,q,k] * sign W[o,k]) * a(o) + b[o]. Moving
  the factor a(o) across the sum is distributivity, which holds for real numbers and fails at the infinities of the
  extended reals; so the two forms agree when x and W are real-valued. The bias b is added last on both sides and
  may be anything.

  The sign comes in two spellings: by the order (-1, 0 or 1), and as "if |w| > 0 then (-1 if w < 0, else 1) else w".
  They agree on every extended real.
-/
import Idealize.ShloMosaic.PureOps.Ideal
import Idealize.ShloMosaic.PureOps.Ideal.Laws
import Idealize.ShloMosaic.Lib.ValueIdx
import proofs.«150857_j50285477101619_2_alg».proof.Proof.LibReal

noncomputable section

namespace Cert.SignLinear

open Idealize.ShloMosaic Idealize.ShloMosaic.ValueIdx Cert.Lib.Real

/-! ## Literals -/

/-- The f32 pattern `0x3F800000` is the real 1. -/
theorem ofBits_one_f32 : Ideal.ofBits .f32 0x3F800000#32 = ((1 : ℝ) : EReal) := by
  simp [Ideal.ofBits, Ideal.ieee, -EReal.coe_mul]; norm_num

/-- The f32 pattern `0xBF800000` is the real -1. -/
theorem ofBits_negOne_f32 : Ideal.ofBits .f32 0xBF800000#32 = ((-1 : ℝ) : EReal) := by
  simp [Ideal.ofBits, Ideal.ieee, -EReal.coe_mul]; norm_num

/-- The f32 pattern `0x45800000` is the real 4096. -/
theorem ofBits_4096_f32 : Ideal.ofBits .f32 0x45800000#32 = ((4096 : ℝ) : EReal) := by
  simp [Ideal.ofBits, Ideal.ieee, -EReal.coe_mul]; norm_num

/-! ## The sign, spelt by comparisons -/

/-- "If |w| > 0 then (-1 if w < 0, else 1) else w", in the comparison and selection operations a vector unit has. -/
def signBySelect (w : EReal) : EReal :=
  Scalar.select (Ideal.cmp .ogt (max w (-w)) (Ideal.ofBits .f32 0x00000000#32))
    (Scalar.select (Ideal.cmp .olt w (Ideal.ofBits .f32 0x00000000#32)) (Ideal.ofBits .f32 0xBF800000#32) (Ideal.ofBits .f32 0x3F800000#32))
    w

/-- The two spellings of the sign agree on every extended real: at -inf the magnitude is +inf > 0 and -inf < 0 gives
    -1; at +inf the magnitude is +inf > 0 and +inf < 0 fails, giving 1; at a real r the magnitude |r| is positive
    unless r = 0, where the selection returns r = 0 itself, the sign of 0. -/
theorem signBySelect_eq (w : EReal) : signBySelect w = Ideal.sign w := by
  unfold signBySelect
  rw [Ideal.ofBits_zero_f32, ofBits_one_f32, ofBits_negOne_f32]
  induction w using EReal.rec with
  | bot =>
    have h1 : (0 : EReal) < max (⊥ : EReal) (-⊥) := by simp
    have h2 : (⊥ : EReal) < 0 := EReal.bot_lt_zero
    simp only [Ideal.cmp, h1, h2, decide_true, Ideal.sign_bot]
    show ((-1 : ℝ) : EReal) = -1
    simp
  | top =>
    have h1 : (0 : EReal) < max (⊤ : EReal) (-⊤) := by simp
    have h2 : ¬ (⊤ : EReal) < 0 := not_lt.mpr le_top
    simp only [Ideal.cmp, h1, h2, decide_true, decide_false, Ideal.sign_top]
    show ((1 : ℝ) : EReal) = 1
    simp
  | coe r =>
    rw [Ideal.sign_coe]
    rcases lt_trichotomy r 0 with hr | hr | hr
    · have h1 : (0 : EReal) < max (r : EReal) (-(r : EReal)) :=
        lt_max_of_lt_right (by rw [← EReal.coe_neg]; exact EReal.coe_pos.mpr (by linarith))
      have h2 : (r : EReal) < 0 := EReal.coe_neg'.mpr hr
      simp only [Ideal.cmp, h1, h2, decide_true]
      show ((-1 : ℝ) : EReal) = _
      rw [sign_neg hr]; simp
    · subst hr
      have h1 : ¬ (0 : EReal) < max ((0 : ℝ) : EReal) (-((0 : ℝ) : EReal)) := by simp
      simp only [Ideal.cmp, h1, decide_false]
      show ((0 : ℝ) : EReal) = _
      simp
    · have h1 : (0 : EReal) < max (r : EReal) (-(r : EReal)) := lt_max_of_lt_left (EReal.coe_pos.mpr hr)
      have h2 : ¬ (r : EReal) < 0 := not_lt.mpr (EReal.coe_nonneg.mpr hr.le)
      simp only [Ideal.cmp, h1, h2, decide_true, decide_false]
      show ((1 : ℝ) : EReal) = _
      rw [sign_pos hr]; simp

/-- The sign is a real number (-1, 0 or 1) at every extended real. -/
theorem isReal_sign (w : EReal) : IsReal (Ideal.sign w) := by
  induction w using EReal.rec with
  | bot => exact ⟨-1, by rw [Ideal.sign_bot]; simp⟩
  | top => exact ⟨1, by rw [Ideal.sign_top]; simp⟩
  | coe r => exact ⟨_, Ideal.sign_coe r⟩

/-! ## The two forms of the layer -/

/-- The sum of the absolute values of row `o` of the weights, divided by 4096. The absolute value is max(w, -w). -/
def rowScale (W : (⟨2, ![4096, 4096]⟩ : Shape).Idx → EReal) (o : Fin 4096) : EReal :=
  Ideal.div (∑ k : Fin 4096, max (W (ix2 o k)) (-(W (ix2 o k)))) (Ideal.ofBits .f32 0x45800000#32)

/-- Scale applied AFTER the product with the bare signs: (sum_k x[p,q,k] * sign W[o,k]) * a(o) + b[o]. -/
def scaleAfter (x : (⟨3, ![4, 2048, 4096]⟩ : Shape).Idx → EReal) (W : (⟨2, ![4096, 4096]⟩ : Shape).Idx → EReal)
    (b : (⟨1, ![4096]⟩ : Shape).Idx → EReal) (p : Fin 4) (q : Fin 2048) (o : Fin 4096) : EReal :=
  (∑ k : Fin 4096, x (ix3 p q k) * Ideal.sign (W (ix2 o k))) * rowScale W o + b (ix1 o)

/-- Scale applied to the weights BEFORE the product: sum_k x[p,q,k] * (a(o) * sign W[o,k]) + b[o]. -/
def scaleBefore (x : (⟨3, ![4, 2048, 4096]⟩ : Shape).Idx → EReal) (W : (⟨2, ![4096, 4096]⟩ : Shape).Idx → EReal)
    (b : (⟨1, ![4096]⟩ : Shape).Idx → EReal) (p : Fin 4) (q : Fin 2048) (o : Fin 4096) : EReal :=
  (∑ k : Fin 4096, x (ix3 p q k) * (rowScale W o * Ideal.sign (W (ix2 o k)))) + b (ix1 o)

/-- The layer as one array, in the scale-before form (the form both runs are stated at). -/
def layer (x : (⟨3, ![4, 2048, 4096]⟩ : Shape).Idx → EReal) (W : (⟨2, ![4096, 4096]⟩ : Shape).Idx → EReal)
    (b : (⟨1, ![4096]⟩ : Shape).Idx → EReal) : (⟨3, ![4, 2048, 4096]⟩ : Shape).Idx → EReal :=
  fun i => scaleBefore x W b (i 0) (i 1) (i 2)

theorem layer_apply (x : (⟨3, ![4, 2048, 4096]⟩ : Shape).Idx → EReal) (W : (⟨2, ![4096, 4096]⟩ : Shape).Idx → EReal)
    (b : (⟨1, ![4096]⟩ : Shape).Idx → EReal) (p : Fin 4) (q : Fin 2048) (o : Fin 4096) :
    layer x W b (ix3 p q o) = scaleBefore x W b p q o := rfl

/-! ## The law -/

/-- The reading of a finite sum of reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distributivity over a finite sum of REAL terms: a real factor moves from the sum onto each term. -/
theorem sum_mul_real {ι : Type*} (s : Finset ι) (x t : ι → EReal) (a : EReal)
    (hx : ∀ k, IsReal (x k)) (ht : ∀ k, IsReal (t k)) (ha : IsReal a) :
    (∑ k ∈ s, x k * t k) * a = ∑ k ∈ s, x k * (a * t k) := by
  obtain ⟨x', rfl⟩ := exists_real hx
  obtain ⟨t', rfl⟩ := exists_real ht
  obtain ⟨a', rfl⟩ := ha
  have e1 : (∑ k ∈ s, ((x' k : ℝ) : EReal) * ((t' k : ℝ) : EReal)) = ((∑ k ∈ s, x' k * t' k : ℝ) : EReal) := by
    rw [coe_sum]; exact Finset.sum_congr rfl fun k _ => (EReal.coe_mul _ _).symm
  have e2 : (∑ k ∈ s, ((x' k : ℝ) : EReal) * (((a' : ℝ) : EReal) * ((t' k : ℝ) : EReal))) = ((∑ k ∈ s, x' k * (a' * t' k) : ℝ) : EReal) := by
    rw [coe_sum]; exact Finset.sum_congr rfl fun k _ => by rw [← EReal.coe_mul, ← EReal.coe_mul]
  rw [e1, e2, ← EReal.coe_mul, Finset.sum_mul]
  exact congrArg _ (Finset.sum_congr rfl fun k _ => by ring)

/-- The mean absolute value of a row of real weights is real. -/
theorem isReal_rowScale (W : (⟨2, ![4096, 4096]⟩ : Shape).Idx → EReal) (hW : ∀ i, IsReal (W i)) (o : Fin 4096) :
    IsReal (rowScale W o) := by
  unfold rowScale
  rw [ofBits_4096_f32]
  refine IsReal.div_coe (isReal_sum _ _ fun k _ => ?_) (by norm_num)
  obtain ⟨r, hr⟩ := hW (ix2 o k)
  rw [hr]
  exact (isReal_coe r).max ⟨-r, (EReal.coe_neg r).symm⟩

/-- For real-valued x and W the two forms of the layer are one number, entry by entry. -/
theorem scaleAfter_eq_scaleBefore (x : (⟨3, ![4, 2048, 4096]⟩ : Shape).Idx → EReal) (W : (⟨2, ![4096, 4096]⟩ : Shape).Idx → EReal)
    (b : (⟨1, ![4096]⟩ : Shape).Idx → EReal) (hx : ∀ i, IsReal (x i)) (hW : ∀ i, IsReal (W i))
    (p : Fin 4) (q : Fin 2048) (o : Fin 4096) : scaleAfter x W b p q o = scaleBefore x W b p q o := by
  unfold scaleAfter scaleBefore
  rw [sum_mul_real Finset.univ (fun k => x (ix3 p q k)) (fun k => Ideal.sign (W (ix2 o k))) (rowScale W o)
    (fun k => hx _) (fun k => isReal_sign _) (isReal_rowScale W hW o)]

end Cert.SignLinear

end
-- ==== Proof.RunFold.lean ====
/-
  The idealized kernel's run, with its RESULT named.

  @main is five segments: a reshape of x to [8192, 4096]; the first pallas_call (rows of W to their signs and their
  mean absolute values); two reshapes (the column of means to a row, the bias to a row); the second pallas_call
  (the matrix product, scaled and shifted); a reshape of the [8192, 4096] product to [4, 2048, 4096]. The buffer
  contents at the five boundaries are a fold through those segments from the launch memory; every weakly fair
  execution terminates in a state whose unscoped buffers hold the last boundary's contents. Read at the result
  buffer and at the three arguments, that is the statement below: the result holds what the fold leaves there, and
  the arguments hold what they were launched with.
-/
import proofs.«150857_j50285477101619_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents, and the three arguments end as launched. The segments, their chaining and the launch are the frame's;
    the final state is read at one more buffer. -/
theorem run_fold : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core holds a ghost resource of its own
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- each segment is entered from the contents the one before leaves; after the last, the buffers and the
      -- generator register on one side, the core owing nothing on the other
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch deals every core its unscoped buffers at the launch memory, its generator register, and no debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the buffers held at the last boundary's contents, beside a final state, say what that state's memory holds
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Result

end
-- ==== Proof.Reshapes.lean ====
/-
  Reshapes read at an index.

  A reshape keeps the row-major order of the entries: the entry at an index of the result is the operand's entry at
  the index with the same row-major position. Four instances:
    * a vector of `a` numbers as an `a × 1` column: position `i * 1 + 0 = i`;
    * an `a × 1` column as a `1 × a` row: position `0 * a + q = q * 1 + 0`;
    * a `[4, 2048, 4096]` array as `[8192, 4096]`, rows `p` and `q` merged into row `p * 2048 + q`:
      position `(p * 2048 + q) * 4096 + k` on both sides; and the same read the other way round.
-/
import Idealize.ShloMosaic.Lib.ValueLayout
import Idealize.ShloMosaic.Lib.Pipeline.Value

noncomputable section

namespace Cert.SignLinear.Reshapes

open Idealize.ShloMosaic Idealize.ShloMosaic.ValueIdx

variable {α : Type}

/-- An `[a]` vector as an `[a, 1]` column: at `(i, u)` it holds the vector's entry `i`. -/
theorem vec_as_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column as a `[1, a]` row: at `(u, q)` it holds the column's entry of row `q`. -/
theorem col_as_row {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu]; omega)

/-- `[4, 2048, 4096]` as `[8192, 4096]`: row `r = p * 2048 + q`, column `k` holds the entry `(p, q, k)`. -/
theorem merge_rows (x : (⟨3, ![4, 2048, 4096]⟩ : Shape).Idx → α)
    (h : (⟨3, ![4, 2048, 4096]⟩ : Shape).ShapeCasts ⟨2, ![8192, 4096]⟩)
    (p : Fin 4) (q : Fin 2048) (k : Fin 4096) (r : Fin 8192) (hr : r.val = p.val * 2048 + q.val) :
    shapeCast ⟨2, ![8192, 4096]⟩ x h (ix2 r k) = x (ix3 p q k) :=
  shapeCast_apply x h _ _ (by
    rw [Shape.rowMajor_val_three, Shape.rowMajor_val_two]
    show (p.val * 2048 + q.val) * 4096 + k.val = r.val * 4096 + k.val
    rw [hr])

/-- `[8192, 4096]` as `[4, 2048, 4096]`: the entry `(p, q, o)` is row `r = p * 2048 + q`, column `o`. -/
theorem split_rows (y : (⟨2, ![8192, 4096]⟩ : Shape).Idx → α)
    (h : (⟨2, ![8192, 4096]⟩ : Shape).ShapeCasts ⟨3, ![4, 2048, 4096]⟩)
    (p : Fin 4) (q : Fin 2048) (o : Fin 4096) (r : Fin 8192) (hr : r.val = p.val * 2048 + q.val) :
    shapeCast ⟨3, ![4, 2048, 4096]⟩ y h (ix3 p q o) = y (ix2 r o) :=
  shapeCast_apply y h _ _ (by
    rw [Shape.rowMajor_val_two, Shape.rowMajor_val_three]
    show r.val * 4096 + o.val = (p.val * 2048 + q.val) * 4096 + o.val
    rw [hr])

end Cert.SignLinear.Reshapes

end
-- ==== Proof.Rows.lean ====
/-
  The first pallas_call: every row of the weights to its signs and to its mean absolute value.

  The grid has 16 points; point t works on rows 256 t … 256 t + 255 of W (a 256 × 4096 block) and writes the block of
  signs (window 1) and the 256 × 1 block of row means (window 2) at the same rows. A block's entry (r, k) sits at
  array index (256 t + r, k). So the written blocks are the restrictions of two whole-array functions of W — the
  entrywise sign, and row o ↦ (sum_k |W[o,k]|) / 4096 — and the 16 blocks tile each array: after the call the two
  arrays ARE those functions of W as the call found it.
-/
import proofs.«150857_j50285477101619_2_alg».proof.Proof.Gen.KernelIdeal.Frame
import proofs.«150857_j50285477101619_2_alg».proof.Proof.Spec
import proofs.«150857_j50285477101619_2_alg».proof.Proof.Reshapes
import Idealize.ShloMosaic.PureOps.Ideal.Laws
import Idealize.ShloMosaic.Lib.ValueIdx
import Idealize.ShloMosaic.Lib.Pipeline.Value

set_option maxRecDepth 16384

noncomputable section

namespace Cert.KernelIdeal.Rows

open Cert.KernelIdeal Cert.KernelIdeal.Gen Cert.SignLinear
open Idealize.ShloMosaic Idealize.ShloMosaic.TcCoe Idealize.ShloMosaic.ValueIdx
open Idealize.SL Idealize.SL.Sem
open Idealize.ShloMosaic.Pipeline (Dat Cfg Window)

/-! ## The body's two results at an index -/

/-- The stored signs: entry by entry, "if |w| > 0 then (-1 if w < 0, else 1) else w"; the change of float format is
    the identity on exact values. -/
theorem signs_apply (v0 : Vec Ideal S256x4096 .f32) (j : S256x4096.Idx) : k0_pay2 v0 j = signBySelect (v0 j) := rfl

/-- A row sum of a 256 × 4096 block: the lane reduction at row r is the sum over the 4096 columns. -/
theorem rowsum_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ k : Fin 4096, src (ix2 r k) :=
  (Ideal.multiReduction_add_single src 0x00000000#32 h hφ hacc (ix1 r)).trans
    (Finset.sum_congr rfl fun k _ => congrArg src (funext fun a => Fin.ext (by match a with | ⟨0, _⟩ => rfl | ⟨1, _⟩ => rfl)))

/-- The stored row means: at row r, the sum of the block's absolute values along the row, divided by 4096. -/
theorem means_apply (v0 : Vec Ideal S256x4096 .f32) (r : Fin 256) (u : Fin 1) :
    k0_pay1 v0 (ix2 r u) = Ideal.div (∑ k : Fin 4096, max (v0 (ix2 r k)) (-(v0 (ix2 r k)))) (Ideal.ofBits .f32 0x45800000#32) := by
  unfold k0_pay1
  refine (divf_apply _ _ (ix2 r u)).trans ?_
  refine congrArg₂ Ideal.div ?_ rfl
  refine (Reshapes.vec_as_col _ _ r u).trans ?_
  exact rowsum_apply (absf v0) _ _ _ r

/-! ## Where the blocks sit -/

variable (V : (c : Dev nD) → (b : Ref sig .tc) → Buf (Elt Ideal) ((c : Thread nD τ).loc b))

theorem origin : (![0, 0] : Fin 2 → Nat) = fun _ => 0 := funext fun a => by fin_cases a <;> rfl

/-- At every grid point the three windows are on the same block of rows, in block-column 0, and there are 16 such
    blocks (decided over the 16 points). -/
theorem blocks_at : ∀ t : Fin cfg0.N, win0_0.index t (0 : Fin 2) = win0_1.index t (0 : Fin 2)
    ∧ win0_0.index t (1 : Fin 2) = 0 ∧ win0_1.index t (1 : Fin 2) = 0
    ∧ win0_2.index t (0 : Fin 2) = win0_1.index t (0 : Fin 2) ∧ win0_2.index t (1 : Fin 2) = 0
    ∧ win0_1.index t (0 : Fin 2) ≤ 15 :=
  (by decide +kernel : ∀ t : Fin grid0.N, _)

/-- Every block of rows is some point's. -/
theorem block_onto : ∀ q0 : Fin 16, ∃ t : Fin cfg0.N, win0_1.index t (0 : Fin 2) = q0.val :=
  (by decide +kernel : ∀ q0 : Fin 16, ∃ t : Fin grid0.N, win0_1.index t (0 : Fin 2) = q0.val)

/-! ## The signs -/

/-- What point t writes back through window 1 is block t of the entrywise sign of W. -/
theorem flushed_signs (c : Dev nD) (t : Fin cfg0.N) :
    (dat0 V c).flushed 1 t = ((cfg0.win 1).blk t).view.read (Elt Ideal) (fun i => signBySelect (V c main_arg1 i)) := by
  show (cfg0.win 1).cut (grid0.coords t) ((dat0 V c).after 1 t) = _
  rw [after0_1]
  unfold out0_1
  rw [View.canon_unit_zero origin]
  simp only [View.ld_unit_zero (S := S256x4096) origin]
  obtain ⟨e0, e1, e2, e3, e4, e5⟩ := blocks_at t
  funext j
  show k0_pay2 (iblk0 V c 0 t) j = signBySelect (V c main_arg1 (((cfg0.win 1).blk t).view.emb j))
  rw [signs_apply]
  show signBySelect (V c main_arg1 (((cfg0.win 0).blk t).view.emb j)) = _
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the sign array is in point t's block iff each coordinate is in the block's range on its axis. -/
theorem mem_signs_blk (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1_0).slice (win0_1.rect t)).set ↔ _
  rw [View.set_slice_whole, Rect.mem_set_unit]
  exact Iff.rfl

/-- The 16 blocks of 256 rows tile the 4096 rows: row i0 is in block i0 / 256. -/
theorem signs_cover (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := block_onto ⟨(i 0).val / 256, by omega⟩
  have q0 : win0_1.index t (0 : Fin 2) = (i 0).val / 256 := ht
  obtain ⟨e0, e1, e2, e3, e4, e5⟩ := blocks_at t
  refine ⟨t, flush0_1 t, ?_⟩
  rw [mem_signs_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- After the call the sign array is the entrywise sign of W as the call found it. -/
theorem signs_array (c : Dev nD) : (dat0 V c).arrAt 1 cfg0.N = fun i => signBySelect (V c main_arg1 i) :=
  (dat0 V c).arrAt_eq_of_cover 1 _ (fun t _ => flushed_signs V c t) (signs_cover)

/-! ## The row means -/

/-- The absolute value max(w, -w) read at two equal indices. -/
theorem absval_congr {ι : Type} (f : ι → EReal) {a b : ι} (h : a = b) : max (f a) (-(f a)) = max (f b) (-(f b)) := by rw [h]

/-- What point t writes back through window 2 is block t of the column "row o ↦ mean absolute value of row o of W":
    the block's row r is the array's row 256 t + r, and the W-block's entry (r, k) is W's entry (256 t + r, k). -/
theorem flushed_means (c : Dev nD) (t : Fin cfg0.N) :
    (dat0 V c).flushed 2 t = ((cfg0.win 2).blk t).view.read (Elt Ideal) (fun i => rowScale (V c main_arg1) (i 0)) := by
  show (cfg0.win 2).cut (grid0.coords t) ((dat0 V c).after 2 t) = _
  rw [after0_2]
  unfold out0_2
  rw [View.canon_unit_zero origin]
  simp only [View.ld_unit_zero (S := S256x4096) origin]
  obtain ⟨e0, e1, e2, e3, e4, e5⟩ := blocks_at t
  funext j
  obtain ⟨r, u, rfl⟩ : ∃ (r : Fin 256) (u : Fin 1), j = ix2 r u := ⟨j 0, j 1, eq_ix2 j⟩
  show k0_pay1 (iblk0 V c 0 t) (ix2 r u) = rowScale (V c main_arg1) ((((cfg0.win 2).blk t).view.emb (ix2 r u)) 0)
  rw [means_apply]
  unfold rowScale
  refine congrArg₂ Ideal.div (Finset.sum_congr rfl fun k _ => ?_) rfl
  have h0 : ((cfg0.win 0).blk t).view.emb (ix2 r k) = ix2 ((((cfg0.win 2).blk t).view.emb (ix2 r u)) 0) k := by
    funext a; apply Fin.ext
    match a with
    | ⟨0, _⟩ => show win0_0.index t (0 : Fin 2) * 256 + 1 * r.val = win0_2.index t (0 : Fin 2) * 256 + 1 * r.val; omega
    | ⟨1, _⟩ => show win0_0.index t (1 : Fin 2) * 4096 + 1 * k.val = k.val; omega
  exact absval_congr (ι := S4096x4096.Idx) (V c main_arg1) h0

/-- An index of the column of means is in point t's block iff each coordinate is in the block's range on its axis. -/
theorem mem_means_blk (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- The 16 blocks of 256 rows tile the column's 4096 rows. -/
theorem means_cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := block_onto ⟨(i 0).val / 256, by omega⟩
  have q0 : win0_1.index t (0 : Fin 2) = (i 0).val / 256 := ht
  obtain ⟨e0, e1, e2, e3, e4, e5⟩ := blocks_at t
  refine ⟨t, flush0_2 t, ?_⟩
  rw [mem_means_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- After the call the column of means holds, at row o, the mean absolute value of row o of W as the call found it. -/
theorem means_array (c : Dev nD) : (dat0 V c).arrAt 2 cfg0.N = fun i => rowScale (V c main_arg1) (i 0) :=
  (dat0 V c).arrAt_eq_of_cover 2 _ (fun t _ => flushed_means V c t) (means_cover)

end Cert.KernelIdeal.Rows

end
-- ==== Proof.Product.lean ====
/-
  The second pallas_call: the matrix product with the signs, scaled by the row of means and shifted by the bias row.

  The grid is 16 × 8; point (i, j) takes the 512 × 4096 block of rows 512 i … of X, the 512 × 4096 block of rows
  512 j … of the sign matrix S, the 1 × 512 pieces at columns 512 j … of the row of means A and of the bias row B, and
  writes the 512 × 512 block (i, j) of the result: entry (r, c) is (sum_k X[512 i + r, k] * S[512 j + c, k]) * A[0, 512 j + c]
  + B[0, 512 j + c]. That is the restriction of one whole-array function of X, S, A, B, and the 128 blocks tile the
  8192 × 4096 result: after the call the result IS that function of the four arrays as the call found them.
-/
import proofs.«150857_j50285477101619_2_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Product

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The product's operand indices -/

/-- The contraction record of the body's product: both operands contract their axis 1. -/
abbrev dims : DotDims S512x4096 S512x4096 S512x512 := dot_S512x4096_S512x4096_S512x512_1_1_0_0_n_n

theorem lhs_row (i : S512x512.Idx) (q : dims.contr.Idx) : (dims.lhsIdx i q 0).val = (i 0).val := by
  unfold DotDims.lhsIdx
  rw [dif_neg (show ¬(0 : Fin S512x4096.rank) ∈ dims.lhsBatch by decide), dif_pos (show (0 : Fin S512x4096.rank) ∈ dims.lhsNonContracting by decide)]
  rfl
theorem lhs_col (i : S512x512.Idx) (q : dims.contr.Idx) : (dims.lhsIdx i q 1).val = (q ⟨0, by decide⟩).val :=
  dims.lhsIdx_val_of_single rfl i q
theorem rhs_row (i : S512x512.Idx) (q : dims.contr.Idx) : (dims.rhsIdx i q 0).val = (i 1).val := by
  unfold DotDims.rhsIdx
  rw [dif_neg (show ¬(0 : Fin S512x4096.rank) ∈ dims.rhsBatch by decide), dif_pos (show (0 : Fin S512x4096.rank) ∈ dims.rhsNonContracting by decide)]
  rfl
theorem rhs_col (i : S512x512.Idx) (q : dims.contr.Idx) : (dims.rhsIdx i q 1).val = (q ⟨0, by decide⟩).val :=
  dims.rhsIdx_val_of_single rfl i q

/-- The product into the zero accumulator, at (r, c): the sum over k of left[r, k] * right[c, k] (the right operand is
    read by ROWS: both contract their second axis). -/
theorem product_apply (l rr : FVec Ideal S512x4096 .bf16) (r c : Fin 512) :
    matmul dims none l rr (constant S512x512 .f32 0x00000000#32) (ix2 r c) = ∑ k : Fin 4096, l (ix2 r k) * rr (ix2 c k) := by
  refine (Ideal.matmul_constant_zero_apply dims none l rr (ix2 r c)).trans ?_
  rw [← Equiv.sum_comp (ValueIdx.contrEquiv1 dims 4096 rfl rfl).symm]
  refine Finset.sum_congr rfl fun k _ => ?_
  have hk := ValueIdx.contrEquiv1_symm_val dims 4096 rfl rfl k
  have el : dims.lhsIdx (ix2 r c) ((ValueIdx.contrEquiv1 dims 4096 rfl rfl).symm k) = ix2 r k := funext fun a => Fin.ext (by
    match a with
    | ⟨0, _⟩ => exact lhs_row _ _
    | ⟨1, _⟩ => exact (lhs_col _ _).trans hk)
  have er : dims.rhsIdx (ix2 r c) ((ValueIdx.contrEquiv1 dims 4096 rfl rfl).symm k) = ix2 c k := funext fun a => Fin.ext (by
    match a with
    | ⟨0, _⟩ => exact rhs_row _ _
    | ⟨1, _⟩ => exact (rhs_col _ _).trans hk)
  rw [el, er]

/-! ## The body's result at an index -/

/-- Entry (r, c) of the stored block: (sum_k x[r, k] * s[c, k]) * a[0, c] + b[0, c]. The casts of a shape to itself
    and the change of float format are the identity; a 1 × 512 row broadcast over 512 rows repeats the row. -/
theorem body_apply (v0 : Vec Ideal S512x4096 .f32) (v3 : Vec Ideal S512x4096 .bf16) (v6 v10 : Vec Ideal S1x512 .f32) (r c : Fin 512) :
    k1_pay1 v0 v3 v6 v10 (ix2 r c)
      = (∑ k : Fin 4096, v0 (ix2 r k) * v3 (ix2 c k)) * v6 (ix2 (0 : Fin 1) c) + v10 (ix2 (0 : Fin 1) c) := by
  unfold k1_pay1
  simp only [shapeCast_self]
  refine (addf_apply _ _ (ix2 r c)).trans ?_
  refine congrArg₂ (· + ·) ((mulf_apply _ _ (ix2 r c)).trans (congrArg₂ (· * ·) ?_ ?_)) ?_
  · exact product_apply _ _ r c
  · exact broadcastTo_1b_ab_apply _ _ r c
  · exact broadcastTo_1b_ab_apply _ _ r c

/-! ## The whole-array function -/

/-- Entry (r, o) of the scaled, shifted product of X with the rows of S. -/
def scaledProduct (X : S8192x4096.Idx → EReal) (S : S4096x4096.Idx → EReal) (A B : S1x4096.Idx → EReal)
    (r : Fin 8192) (o : Fin 4096) : EReal :=
  (∑ k : Fin 4096, X (ix2 r k) * S (ix2 o k)) * A (ix2 (0 : Fin 1) o) + B (ix2 (0 : Fin 1) o)

/-- The same at four indices known equal to (r, k), (o, k), (0, o), (0, o): the form the blocks are read in. -/
theorem scaledProduct_of_reads (X : S8192x4096.Idx → EReal) (S : S4096x4096.Idx → EReal) (A B : S1x4096.Idx → EReal)
    (r : Fin 8192) (o : Fin 4096) (x s : Fin 4096 → EReal) (a b : EReal)
    (hx : ∀ k, x k = X (ix2 r k)) (hs : ∀ k, s k = S (ix2 o k)) (ha : a = A (ix2 (0 : Fin 1) o)) (hb : b = B (ix2 (0 : Fin 1) o)) :
    (∑ k : Fin 4096, x k * s k) * a + b = scaledProduct X S A B r o := by
  unfold scaledProduct
  rw [ha, hb]
  exact congrArg (· * A (ix2 (0 : Fin 1) o) + B (ix2 (0 : Fin 1) o)) (Finset.sum_congr rfl fun k _ => by rw [hx k, hs k])

/-! ## Where the blocks sit -/

variable (V : (c : Dev nD) → (b : Ref sig .tc) → Buf (Elt Ideal) ((c : Thread nD τ).loc b))

theorem origin : (![0, 0] : Fin 2 → Nat) = fun _ => 0 := funext fun a => by fin_cases a <;> rfl

/-- At every grid point: X's block is on the output block's rows; S's block of rows, and the pieces of the two rows, are
    on the output block's columns; the output's block indices range over 16 × 8 (decided over the 128 points). -/
theorem blocks_at : ∀ t : Fin cfg1.N, win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = 0 ∧ win1_2.index t (1 : Fin 2) = win1_4.index t (1 : Fin 2)
    ∧ win1_3.index t (0 : Fin 2) = 0 ∧ win1_3.index t (1 : Fin 2) = win1_4.index t (1 : Fin 2)
    ∧ win1_4.index t (0 : Fin 2) ≤ 15 ∧ win1_4.index t (1 : Fin 2) ≤ 7 :=
  (by decide +kernel : ∀ t : Fin grid1.N, _)

/-- Every output block is some point's. -/
theorem block_onto : ∀ (q0 : Fin 16) (q1 : Fin 8), ∃ t : Fin cfg1.N, win1_4.index t (0 : Fin 2) = q0.val ∧ win1_4.index t (1 : Fin 2) = q1.val :=
  (by decide +kernel : ∀ (q0 : Fin 16) (q1 : Fin 8), ∃ t : Fin grid1.N, win1_4.index t (0 : Fin 2) = q0.val ∧ win1_4.index t (1 : Fin 2) = q1.val)

/-! ## The result -/

/-- What point t writes back is block t of the scaled, shifted product of the four arrays as the call found them. -/
theorem flushed_product (c : Dev nD) (t : Fin cfg1.N) :
    (dat1 V c).flushed 4 t = ((cfg1.win 4).blk t).view.read (Elt Ideal)
      (fun i => scaledProduct (V c main_v0) (V c main_v1_0) (V c main_v2) (V c main_v3) (i 0) (i 1)) := by
  show (cfg1.win 4).cut (grid1.coords t) ((dat1 V c).after 4 t) = _
  rw [after1_4]
  unfold out1_4
  rw [View.canon_unit_zero origin]
  simp only [View.ld_unit_zero (S := S512x4096) origin, View.ld_unit_zero (S := S1x512) origin]
  obtain ⟨e0, e1, e2, e3, e4, e5, e6, e7, e8, e9⟩ := blocks_at t
  funext j
  obtain ⟨r, cc, rfl⟩ : ∃ (r : Fin 512) (cc : Fin 512), j = ix2 r cc := ⟨j 0, j 1, eq_ix2 j⟩
  show k1_pay1 (iblk1 V c 0 t) (iblk1 V c 1 t) (iblk1 V c 2 t) (iblk1 V c 3 t) (ix2 r cc)
    = scaledProduct (V c main_v0) (V c main_v1_0) (V c main_v2) (V c main_v3)
        ((((cfg1.win 4).blk t).view.emb (ix2 r cc)) 0) ((((cfg1.win 4).blk t).view.emb (ix2 r cc)) 1)
  rw [body_apply]
  refine scaledProduct_of_reads _ _ _ _ _ _ _ _ _ _ (fun k => ?_) (fun k => ?_) ?_ ?_
  · show V c main_v0 (((cfg1.win 0).blk t).view.emb (ix2 r k)) = V c main_v0 _
    refine congrArg (V c main_v0) (funext fun a => Fin.ext ?_)
    match a with
    | ⟨0, _⟩ => show win1_0.index t (0 : Fin 2) * 512 + 1 * r.val = win1_4.index t (0 : Fin 2) * 512 + 1 * r.val; omega
    | ⟨1, _⟩ => show win1_0.index t (1 : Fin 2) * 4096 + 1 * k.val = k.val; omega
  · show V c main_v1_0 (((cfg1.win 1).blk t).view.emb (ix2 cc k)) = V c main_v1_0 _
    refine congrArg (V c main_v1_0) (funext fun a => Fin.ext ?_)
    match a with
    | ⟨0, _⟩ => show win1_1.index t (0 : Fin 2) * 512 + 1 * cc.val = win1_4.index t (1 : Fin 2) * 512 + 1 * cc.val; omega
    | ⟨1, _⟩ => show win1_1.index t (1 : Fin 2) * 4096 + 1 * k.val = k.val; omega
  · show V c main_v2 (((cfg1.win 2).blk t).view.emb (ix2 (0 : Fin 1) cc)) = V c main_v2 _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * cc.val = win1_4.index t (1 : Fin 2) * 512 + 1 * cc.val; omega
  · show V c main_v3 (((cfg1.win 3).blk t).view.emb (ix2 (0 : Fin 1) cc)) = V c main_v3 _
    refine congrArg (V c main_v3) (funext fun a => Fin.ext ?_)
    match a with
    | ⟨0, _⟩ => show win1_3.index t (0 : Fin 2) * 1 + 1 * 0 = 0; omega
    | ⟨1, _⟩ => show win1_3.index t (1 : Fin 2) * 512 + 1 * cc.val = win1_4.index t (1 : Fin 2) * 512 + 1 * cc.val; omega

/-- An index of the result is in point t's block iff each coordinate is in the block's range on its axis. -/
theorem mem_product_blk (t : Fin cfg1.N) (i : S8192x4096.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v4).slice (win1_4.rect t)).set ↔ _
  rw [View.set_slice_whole, Rect.mem_set_unit]
  exact Iff.rfl

/-- The 16 × 8 blocks of 512 × 512 tile the 8192 × 4096 result. -/
theorem product_cover (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨t, q0, q1⟩ := block_onto ⟨(i 0).val / 512, by omega⟩ ⟨(i 1).val / 512, by omega⟩
  have q0' : win1_4.index t (0 : Fin 2) = (i 0).val / 512 := q0
  have q1' : win1_4.index t (1 : Fin 2) = (i 1).val / 512 := q1
  refine ⟨t, flush1_4 t, ?_⟩
  rw [mem_product_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 512 ≤ (i 1).val ∧ (i 1).val < win1_4.index t (1 : Fin 2) * 512 + 512; omega

/-- After the call the result array is the scaled, shifted product of the four arrays as the call found them. -/
theorem product_array (c : Dev nD) : (dat1 V c).arrAt 4 cfg1.N
    = fun i => scaledProduct (V c main_v0) (V c main_v1_0) (V c main_v2) (V c main_v3) (i 0) (i 1) :=
  (dat1 V c).arrAt_eq_of_cover 4 _ (fun t _ => flushed_product V c t) (product_cover)

end Cert.KernelIdeal.Product

end
-- ==== Proof.Boundaries.lean ====
/-
  The contents of the result buffer at the last boundary, as a function of the arguments.

  Walking the fold back from the end: the result is the reshape to [4, 2048, 4096] of the second call's output; that
  output is the scaled, shifted product of the four arrays the second call found — X, the reshape of x to [8192, 4096]
  (written before the first call and untouched by it); S, the first call's sign array; A, the reshape to a row of the
  first call's column of means; B, the reshape to a row of the bias — and the first call found W as launched. Read at
  (p, q, o), with r = 2048 p + q:
      result[p,q,o] = (sum_k X[r,k] * S[o,k]) * A[0,o] + B[0,o]
                    = (sum_k x[p,q,k] * sign W[o,k]) * a(o) + b[o],
  the scale-after form of the layer.
-/
import proofs.«150857_j50285477101619_2_alg».proof.Proof.Gen.KernelIdeal.Frame
import proofs.«150857_j50285477101619_2_alg».proof.Proof.Spec
import proofs.«150857_j50285477101619_2_alg».proof.Proof.Reshapes
import proofs.«150857_j50285477101619_2_alg».proof.Proof.Rows
import proofs.«150857_j50285477101619_2_alg».proof.Proof.Product
import Idealize.ShloMosaic.Lib.StableHlo.Run
import Idealize.ShloMosaic.Lib.ValueLayout

set_option maxRecDepth 16384

noncomputable section

namespace Cert.KernelIdeal.Boundaries

open Cert.KernelIdeal Cert.KernelIdeal.Gen Cert.SignLinear
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The first call finds W as launched: the one operation before it writes another buffer. -/
theorem first_finds_W (c : Dev nD) : V1 m ρ c main_arg1 = m ((c : Thread nD τ).loc main_arg1) := by
  show StableHlo.after hostOps0 (W0 m ρ c) (Proc.devRef .tc main_arg1) = _
  after_results

/-- The second call finds X, the reshape of x as launched: written before the first call, which does not touch it. -/
theorem second_finds_X (c : Dev nD) :
    V3 m ρ c main_v0 = shapeCast S8192x4096 (m ((c : Thread nD τ).loc main_arg0)) shapeCasts_S4x2048x4096_S8192x4096 :=
  calc V3 m ρ c main_v0
    _ = W2 m ρ c (Proc.devRef .tc main_v0) := by
          show StableHlo.after hostOps1 (W2 m ρ c) (Proc.devRef .tc main_v0) = _
          after_results
    _ = W1 m ρ c (Proc.devRef .tc main_v0) := W2_of_ne m ρ c main_v0 (by decide)
    _ = _ := by
          show StableHlo.after hostOps0 (W0 m ρ c) (Proc.devRef .tc main_v0) = _
          after_results
          rfl

/-- The second call finds S, the entrywise sign of W as launched. -/
theorem second_finds_S (c : Dev nD) :
    V3 m ρ c main_v1_0 = fun i => signBySelect (m ((c : Thread nD τ).loc main_arg1) i) :=
  calc V3 m ρ c main_v1_0
    _ = W2 m ρ c (Proc.devRef .tc main_v1_0) := by
          show StableHlo.after hostOps1 (W2 m ρ c) (Proc.devRef .tc main_v1_0) = _
          after_results
    _ = (dat0 (V1 m ρ) c).arrAt 1 cfg0.N := W2_arr m ρ c 1
    _ = fun i => signBySelect (V1 m ρ c main_arg1 i) := Rows.signs_array (V1 m ρ) c
    _ = _ := by rw [first_finds_W]

/-- The second call finds A, the column of row means of W as launched, reshaped to a row. -/
theorem second_finds_A (c : Dev nD) :
    V3 m ρ c main_v2 = shapeCast S1x4096 (fun i : S4096x1.Idx => rowScale (m ((c : Thread nD τ).loc main_arg1)) (i 0)) shapeCasts_S4096x1_S1x4096 :=
  calc V3 m ρ c main_v2
    _ = shapeCast S1x4096 (W2 m ρ c (Proc.devRef .tc main_v1_1)) shapeCasts_S4096x1_S1x4096 := by
          show StableHlo.after hostOps1 (W2 m ρ c) (Proc.devRef .tc main_v2) = _
          after_results
          rfl
    _ = _ := by
          rw [show W2 m ρ c (Proc.devRef .tc main_v1_1) = _ from (W2_arr m ρ c 2).trans (Rows.means_array (V1 m ρ) c), first_finds_W]
          rfl

/-- The second call finds B, the bias as launched, reshaped to a row. -/
theorem second_finds_B (c : Dev nD) :
    V3 m ρ c main_v3 = shapeCast S1x4096 (m ((c : Thread nD τ).loc main_arg2)) shapeCasts_S4096_S1x4096 :=
  calc V3 m ρ c main_v3
    _ = shapeCast S1x4096 (W2 m ρ c (Proc.devRef .tc main_arg2)) shapeCasts_S4096_S1x4096 := by
          show StableHlo.after hostOps1 (W2 m ρ c) (Proc.devRef .tc main_v3) = _
          after_results
          rfl
    _ = shapeCast S1x4096 (W1 m ρ c (Proc.devRef .tc main_arg2)) shapeCasts_S4096_S1x4096 := by
          rw [W2_of_ne m ρ c main_arg2 (by decide)]
    _ = _ := by
          refine congrArg (fun z => shapeCast S1x4096 z shapeCasts_S4096_S1x4096) ?_
          show StableHlo.after hostOps0 (W0 m ρ c) (Proc.devRef .tc main_arg2) = _
          after_results

/-- THE RESULT at the last boundary: the scale-after form of the layer of the arguments as launched. -/
theorem result_eq (c : Dev nD) :
    W5 m ρ c (Proc.devRef .tc main_v5)
      = fun i => scaleAfter (m ((c : Thread nD τ).loc main_arg0)) (m ((c : Thread nD τ).loc main_arg1)) (m ((c : Thread nD τ).loc main_arg2)) (i 0) (i 1) (i 2) := by
  have e : W5 m ρ c (Proc.devRef .tc main_v5)
      = shapeCast S4x2048x4096 (W4 m ρ c (Proc.devRef .tc main_v4)) shapeCasts_S8192x4096_S4x2048x4096 := by
    show StableHlo.after hostOps2 (W4 m ρ c) (Proc.devRef .tc main_v5) = _
    after_results
    rfl
  rw [e, show W4 m ρ c (Proc.devRef .tc main_v4) = _ from (W4_arr m ρ c 4).trans (Product.product_array (V3 m ρ) c),
    second_finds_X, second_finds_S, second_finds_A, second_finds_B]
  funext i
  obtain ⟨p, q, o, rfl⟩ : ∃ (p : Fin 4) (q : Fin 2048) (o : Fin 4096), i = ix3 p q o := ⟨i 0, i 1, i 2, eq_ix3 i⟩
  have hr : p.val * 2048 + q.val < 8192 := by omega
  rw [Reshapes.split_rows _ _ p q o ⟨p.val * 2048 + q.val, hr⟩ rfl]
  show Product.scaledProduct _ _ _ _ ⟨p.val * 2048 + q.val, hr⟩ o = scaleAfter _ _ _ p q o
  unfold Product.scaledProduct scaleAfter
  refine congrArg₂ (· + ·) (congrArg₂ (· * ·) (Finset.sum_congr rfl fun k _ => congrArg₂ (· * ·) ?_ ?_) ?_) ?_
  · exact Reshapes.merge_rows _ _ p q k _ rfl
  · exact signBySelect_eq _
  · exact Reshapes.col_as_row _ _ 0 o
  · exact shapeCast_a_1a_apply _ _ 0 o

end Cert.KernelIdeal.Boundaries

end
-- ==== Proof.RefLayer.lean ====
/-
  The reference computes the layer in the scale-before form.

  Its stages, read at an index: the absolute values of W; their row sums from 0; the sums as a column; the column
  divided by 4096; the signs of W; the column spread along the rows and multiplied by the signs — the binarized
  weights a(o) * sign W[o,k] —; the contraction of x's last axis with the weights' second axis; the bias spread over
  the leading axes and added. At (p, q, o) that is sum_k x[p,q,k] * (a(o) * sign W[o,k]) + b[o].
-/
import proofs.«150857_j50285477101619_2_alg».proof.Proof.Gen.ReferenceIdeal.Read
import proofs.«150857_j50285477101619_2_alg».proof.Proof.Spec

noncomputable section

namespace Cert.ReferenceIdeal.Layer

open Cert.ReferenceIdeal Cert.ReferenceIdeal.Read Cert.SignLinear
open Idealize.ShloMosaic Idealize.ShloMosaic.ValueIdx

/-- The binarized weights the reference builds, at (o, k): the row's mean absolute value times the entry's sign. -/
theorem weights_apply (x1 : (⟨S4096x4096, .f32⟩ : BufTy).Contents (Elt Ideal)) (o k : Fin 4096) :
    val_main_v7 (F := Ideal) x1 (ix2 o k) = rowScale x1 o * Ideal.sign (x1 (ix2 o k)) := by
  rw [val_main_v7_apply, val_main_v6_apply, val_main_v5_apply, val_main_v4_apply, val_main_v2_apply, val_main_v3_apply,
    val_main_v1_apply, val_main_cst_0_apply, val_main_cst_apply]
  simp only [Ideal.mulf_def, Ideal.hostDivf_def, Ideal.hostUnary_sign_def, Ideal.ofBits_def, Ideal.ofBits_zero_f32, zero_add]
  unfold rowScale
  refine congrArg₂ (· * ·) (congrArg₂ Ideal.div (Finset.sum_congr rfl fun k' _ => ?_) rfl) rfl
  have e : idx_main_v1 (idx_main_v2 (idx_main_v6 (ix2 o k))) k' = ix2 o k' :=
    funext fun a => Fin.ext (by match a with | ⟨0, _⟩ => rfl | ⟨1, _⟩ => rfl)
  rw [e, val_main_v0_apply]
  rfl

/-- The reference's result is the layer, entry by entry. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) : val_main_v11 (F := Ideal) x0 x1 x2 = layer x0 x1 x2 := by
  funext i
  obtain ⟨p, q, o, rfl⟩ : ∃ (p : Fin 4) (q : Fin 2048) (o : Fin 4096), i = ix3 p q o := ⟨i 0, i 1, i 2, eq_ix3 i⟩
  rw [layer_apply]
  unfold scaleBefore
  rw [val_main_v11_apply, val_main_v8_apply, val_main_v10_apply, val_main_v9_apply]
  simp only [Ideal.addf_def]
  refine congrArg₂ (· + ·) (Finset.sum_congr rfl fun k _ => ?_) ?_
  · have el : lidx_main_v8 (ix3 p q o) k = ix3 p q k :=
      funext fun a => Fin.ext (by match a with | ⟨0, _⟩ => rfl | ⟨1, _⟩ => rfl | ⟨2, _⟩ => rfl)
    have er : ridx_main_v8 (ix3 p q o) k = ix2 o k :=
      funext fun a => Fin.ext (by match a with | ⟨0, _⟩ => rfl | ⟨1, _⟩ => rfl)
    rw [el, er, weights_apply]
  · exact congrArg x2 (funext fun a => Fin.ext (by match a with | ⟨0, _⟩ => rfl))

end Cert.ReferenceIdeal.Layer

end
-- ==== Proof.Finite.lean ====
/-
  The precondition says the inputs are real.

  The precondition is "all |x| < +inf and all |W| < +inf and all |b| < +inf", each "all" a reduction by "and" over
  every entry. On the extended reals |v| = max(v, -v) is +inf at both infinities, so |v| < +inf holds exactly when v
  is a real number. The word `0x7F800000` is +inf.
-/
import proofs.«150857_j50285477101619_2_alg».proof.Pre_finite_inputs
import proofs.«150857_j50285477101619_2_alg».proof.Proof.LibReal
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Cert.Lib.Real
open Idealize.ShloMosaic

/-- The f32 pattern `0x7F800000` is +inf. -/
theorem ofBits_inf_f32 : Ideal.ofBits .f32 0x7F800000#32 = ⊤ := by
  simp [Ideal.ofBits, Ideal.ieee]

/-- An extended real whose absolute value is below +inf is a real number. -/
theorem isReal_of_abs_lt (v : EReal) (h : Ideal.cmp .olt (max v (-v)) (Ideal.ofBits .f32 0x7F800000#32) = 1#1) : IsReal v := by
  rw [ofBits_inf_f32] at h
  induction v using EReal.rec with
  | bot => exfalso; simp [Ideal.cmp] at h
  | top => exfalso; simp [Ideal.cmp] at h
  | coe r => exact ⟨r, rfl⟩

instance : Subsingleton S_.Idx := ⟨fun a b => funext fun d => d.elim0⟩

/-- Under the precondition every entry of x and of W is a real number. -/
theorem reals_of_pre [Cert.Pre_finite_inputs.Facts] (x : FVec Ideal S4x2048x4096 .f32) (W : FVec Ideal S4096x4096 .f32) (b : FVec Ideal S4096 .f32)
    (h : fn (F := Ideal) x W b = fun _ => 1#1) : (∀ i, IsReal (x i)) ∧ (∀ i, IsReal (W i)) := by
  have h0 := congrFun h ValueIdx.ix0
  dsimp only [fn] at h0
  obtain ⟨h01, h2⟩ := IntOp.andi_eq_one.mp h0
  obtain ⟨hx, hW⟩ := IntOp.andi_eq_one.mp h01
  exact ⟨fun i => isReal_of_abs_lt _ (Host.reduce_andi_all _ _ _ _ _ hx i),
    fun i => isReal_of_abs_lt _ (Host.reduce_andi_all _ _ _ _ _ hW i)⟩

end Cert.Pre_finite_inputs.Finite

end
-- ==== Proof.lean ====
/-
  A linear layer with sign-binarized weights, as two pallas_calls, against its jnp reference: the five claims.

  The kernel computes, for x[4, 2048, 4096], W[4096, 4096], b[4096],
      out[p,q,o] = (sum_k x[p,q,k] * sign W[o,k]) * a(o) + b[o],     a(o) = (sum_k |W[o,k]|) / 4096,
  the row scale applied to the accumulated product; the reference scales the weights first,
      out[p,q,o] = sum_k x[p,q,k] * (a(o) * sign W[o,k]) + b[o].
  Read exactly, the two differ by moving the factor a(o) across a sum of 4096 terms: distributivity, which holds for
  real numbers. The precondition (all inputs finite) makes x and W real, hence a(o) real, and the two results equal.

  * The three programs run and leave their arguments unchanged: the two kernels' frames are generated; the reference's
    is its generated run with the result dropped.
  * The idealized kernel differs from the kernel as printed at one site, the sign by the sign bit, whose statement is the
    rule's.
  * The idealized kernel's result is read off the fold of buffer contents through @main's five segments (RunFold,
    Boundaries; the two calls' outputs as whole arrays in Rows and Product), the reference's off its generated stages
    (RefLayer); Spec has the two forms of the layer and the law; Finite reads the precondition.
-/
import proofs.«150857_j50285477101619_2_alg».proof.Defs
import proofs.«150857_j50285477101619_2_alg».proof.Proof.Gen.Kernel
import proofs.«150857_j50285477101619_2_alg».proof.Proof.Gen.Kernel.Frame
import proofs.«150857_j50285477101619_2_alg».proof.Proof.Gen.KernelIdeal
import proofs.«150857_j50285477101619_2_alg».proof.Proof.Gen.KernelIdeal.Frame
import proofs.«150857_j50285477101619_2_alg».proof.Proof.Gen.ReferenceIdeal
import proofs.«150857_j50285477101619_2_alg».proof.Proof.Gen.Pre_finite_inputs
import proofs.«150857_j50285477101619_2_alg».proof.Proof.Gen.ReferenceIdeal.Run
import proofs.«150857_j50285477101619_2_alg».proof.Proof.Gen.ReferenceIdeal.Read
import proofs.«150857_j50285477101619_2_alg».proof.Proof.Spec
import proofs.«150857_j50285477101619_2_alg».proof.Proof.RunFold
import proofs.«150857_j50285477101619_2_alg».proof.Proof.Boundaries
import proofs.«150857_j50285477101619_2_alg».proof.Proof.RefLayer
import proofs.«150857_j50285477101619_2_alg».proof.Proof.Finite
import Idealize.ShloMosaic.Adequacy
import Idealize.ShloMosaic.Init

noncomputable section

namespace Cert.Proof

open Idealize.ShloMosaic Idealize.ShloMosaic.TcCoe Idealize.SL.Sem Cert.SignLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The one site the idealization rewrote: 1.0 with the sign bit of w is -1 for w < 0 and 1 otherwise. -/
theorem preserves : Cert.preserves_Kernel_KernelIdeal := IdealRules.sign_bit.statement Cert.KernelIdeal.S256x4096 .f32

/-- Both idealized programs end with the layer of the launched arguments in their result: the kernel in the scale-after
    form, which for the real x and W the precondition gives is the scale-before form the reference computes. -/
theorem algebraic : Cert.algebraic_KernelIdeal_ReferenceIdeal := by
  intro m ρ m' ρ' hpre hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Result.run_fold (F := Ideal) m ρ)
    rw [Cert.KernelIdeal.Boundaries.result_eq m ρ c]
    obtain ⟨hx, hW⟩ := Cert.Pre_finite_inputs.Finite.reals_of_pre _ _ _ (hpre c)
    funext i
    exact scaleAfter_eq_scaleBefore _ _ _ hx hW (i 0) (i 1) (i 2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.Layer.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
